-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  main_v3
-- ==== Kernel.lean ====
abbrev S33554432 : Shape := ⟨1, ![33554432]⟩
abbrev S262144x128 : Shape := ⟨2, ![262144, 128]⟩
abbrev S8192x128 : Shape := ⟨2, ![8192, 128]⟩

abbrev nBuf : Space → Nat
  | .hbm => 4
  | .vmem => 4
  | .smem => 0
  | _ => 0

abbrev bufTy : (tb : Table) → Fin (tcTables nBuf tb) → BufTy
  | .hbm, ⟨0, _⟩ => ⟨S33554432, .f32⟩
  | .hbm, ⟨1, _⟩ => ⟨S262144x128, .f32⟩
  | .hbm, ⟨2, _⟩ => ⟨S262144x128, .f32⟩
  | .hbm, ⟨3, _⟩ => ⟨S33554432, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S33554432_S262144x128 : S33554432.ShapeCasts S262144x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S262144x128_S33554432 : S262144x128.ShapeCasts S33554432
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .f32 = 32 ∨ (Rect.block (s := S262144x128) S8192x128.size (cc0_transform_1 i) (hinb0_1 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S33554432 : Shape := ⟨1, ![33554432]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S_, .f32⟩
  | .hbm, ⟨2, _⟩ => ⟨S33554432, .f32⟩
  | .hbm, ⟨3, _⟩ => ⟨S33554432, .f32⟩
  | .hbm, ⟨4, _⟩ => ⟨S_, .f32⟩
  | .hbm, ⟨5, _⟩ => ⟨S33554432, .f32⟩
  | .hbm, ⟨6, _⟩ => ⟨S33554432, .i1⟩
  | .hbm, ⟨7, _⟩ => ⟨S33554432, .f32⟩
  | .hbm, ⟨8, _⟩ => ⟨S33554432, .f32⟩
  | .hbm, ⟨9, _⟩ => ⟨S33554432, .f32⟩
  | .hbm, ⟨10, _⟩ => ⟨S_, .f32⟩
  | .hbm, ⟨11, _⟩ => ⟨S_, .i32⟩
  | .hbm, ⟨12, _⟩ => ⟨S_, .f32⟩
  | .hbm, ⟨13, _⟩ => ⟨S33554432, .f32⟩
  | .hbm, ⟨14, _⟩ => ⟨S33554432, .f32⟩
  | .hbm, ⟨15, _⟩ => ⟨S_, .f32⟩
  | .hbm, ⟨16, _⟩ => ⟨S33554432, .f32⟩
  | .hbm, ⟨17, _⟩ => ⟨S33554432, .f32⟩
  | .hbm, ⟨18, _⟩ => ⟨S_, .f32⟩
  | .hbm, ⟨19, _⟩ => ⟨S33554432, .f32⟩
  | .hbm, ⟨20, _⟩ => ⟨S33554432, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_v2 : Ref sig .tc := ⟨.hbm, 9, rfl⟩
abbrev main_cst_0 : Ref sig .tc := ⟨.hbm, 10, rfl⟩
abbrev main_c : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)

variable [Facts₀]

class Facts : Prop extends Facts₀ where

variable [Facts]
-- ==== Proof.Level.lean ====
/-
  The scalar function both programs apply to every element, and the one law that joins their two spellings.

  Both programs quantise an element x to one of 1024 levels of width 2^-10:
      level x = min 1023 (max 0 (toward-zero (x scaled by 1024))) * 2^-10,
  rounding toward zero spelt as "ceil below zero, floor otherwise".  The kernel scales by the PRODUCT x * 1024; the
  reference scales by the QUOTIENT x / 2^-10, rounds with the host's ceil and floor, and takes its upper bound from the
  integer 1023 converted to a float.  'kernelLevel' and 'refLevel' below are those two chains, operation by operation, over
  any float instance.  On the extended reals they are one function: dividing by the real 2^-10 is multiplying by its
  inverse 1024 on EVERY extended real (the infinities included, so no finiteness is needed), the host's ceil and floor
  are the kernel's, and the integer 1023 converts to the real 1023, which is what the literal 1023.0 denotes.
-/
import Idealize.ShloMosaic.PureOps.Ideal
import Idealize.ShloMosaic.PureOps.Ideal.Laws

noncomputable section

namespace Cert.Binning

open Idealize.ShloMosaic

variable {F : FTy → Type} [FloatOps F]

/-- Rounding toward zero as both programs spell it: the ceiling of a value below zero, the floor of any other, the two
    roundings passed in (the kernel's are the vector unit's, the reference's the host's). -/
def towardZero (up down : F .f32 → F .f32) (y : F .f32) : F .f32 :=
  Scalar.select (FloatOps.cmpf .olt y (FloatOps.ofBits .f32 0x00000000#32)) (up y) (down y)

/-- Clamp to [0, hi] and scale by 2^-10: min hi (max 0 z) * 2^-10, the operands in the programs' order. -/
def clampScale (hi z : F .f32) : F .f32 :=
  FloatOps.mulf (FloatOps.minimumf hi (FloatOps.maximumf (FloatOps.ofBits .f32 0x00000000#32) z))
    (FloatOps.ofBits .f32 0x3A800000#32)

/-- The kernel's chain on one element: scale by the product with 1024.0, round toward zero, clamp to [0, 1023.0], scale back. -/
def kernelLevel (x : F .f32) : F .f32 :=
  clampScale (FloatOps.ofBits .f32 0x447FC000#32)
    (towardZero FloatOps.ceil FloatOps.floor (FloatOps.mulf x (FloatOps.ofBits .f32 0x44800000#32)))

/-- The reference's chain on one element: scale by the quotient by 2^-10, round toward zero with the host's ceil and
    floor, clamp to [0, the integer 1023 as a float], scale back. -/
def refLevel (x : F .f32) : F .f32 :=
  clampScale (FloatOps.sitofp .f32 (1023#32 : BitVec 32))
    (towardZero (FloatOps.hostUnary .ceil) (FloatOps.hostUnary .floor)
      (FloatOps.hostDivf x (FloatOps.ofBits .f32 0x3A800000#32)))

/-- A scalar function applied to every element of an array of any shape. -/
def everywhere (f : F .f32 → F .f32) {s : Shape} (x : FVec F s .f32) : FVec F s .f32 := fun i => f (x i)

/-- Applying a function to every element commutes with re-reading the array, in row-major order, under another shape:
    both sides read the same element of x at each index. -/
theorem everywhere_shapeCast (f : F .f32 → F .f32) {s t : Shape} (x : FVec F s .f32) (h : s.ShapeCasts t) :
    shapeCast t (everywhere f x) h = everywhere f (shapeCast t x h) := rfl

/-! ## The literals, as the extended reals they denote -/

/-- The literal 1024.0 denotes the real 1024. -/
theorem ofBits_1024 : Ideal.ofBits .f32 0x44800000#32 = ((1024 : ℝ) : EReal) := by
  simp [Ideal.ofBits, Ideal.ieee, -EReal.coe_mul]; norm_num

/-- The literal 9.765625E-4 denotes the real 2^-10 = 1/1024. -/
theorem ofBits_inv1024 : Ideal.ofBits .f32 0x3A800000#32 = ((1 / 1024 : ℝ) : EReal) := by
  simp [Ideal.ofBits, Ideal.ieee, -EReal.coe_mul]; norm_num

/-- The literal 1023.0 denotes the real 1023. -/
theorem ofBits_1023 : Ideal.ofBits .f32 0x447FC000#32 = ((1023 : ℝ) : EReal) := by
  simp [Ideal.ofBits, Ideal.ieee, -EReal.coe_mul]; norm_num

/-- The integer 1023, converted, is the real 1023: the value of the literal 1023.0. -/
theorem sitofp_1023 : FloatOps.sitofp (F := Ideal) .f32 (1023#32 : BitVec 32) = FloatOps.ofBits (F := Ideal) .f32 0x447FC000#32 := by
  show (((1023#32 : BitVec 32).toInt : ℝ) : EReal) = Ideal.ofBits .f32 0x447FC000#32
  have h : (1023#32 : BitVec 32).toInt = 1023 := by decide
  rw [ofBits_1023, h]
  norm_num

/-- THE LAW: the quotient by 2^-10 is the product with 1024, on every extended real. -/
theorem quotient_eq_product (x : EReal) :
    FloatOps.hostDivf (F := Ideal) (φ := .f32) x (FloatOps.ofBits .f32 0x3A800000#32)
      = FloatOps.mulf (F := Ideal) (φ := .f32) x (FloatOps.ofBits .f32 0x44800000#32) := by
  show Ideal.div x (Ideal.ofBits .f32 0x3A800000#32) = x * Ideal.ofBits .f32 0x44800000#32
  rw [ofBits_inv1024, ofBits_1024, Ideal.div_coe (by norm_num : (1 / 1024 : ℝ) ≠ 0)]
  norm_num

/-- On the extended reals the reference's chain is the kernel's. -/
theorem refLevel_eq_kernelLevel (x : EReal) : refLevel (F := Ideal) x = kernelLevel (F := Ideal) x := by
  unfold refLevel kernelLevel
  rw [sitofp_1023, quotient_eq_product]
  rfl

end Cert.Binning

end
-- ==== Proof.ReferenceRun.lean ====
/-
  The reference program's run, read back: every element of its result is 'refLevel' of the same element of its argument.

  The reference is a straight line of host operations once its three outlined functions are read at their call sites:
  the quotient x / 2^-10 (a scalar literal, its broadcast, the division); rounding toward zero (a zero and its
  broadcast, the comparison "below zero", the ceiling, the floor, and the selection between them); the clamp (the lower
  bound 0 converted to its own type and broadcast, the maximum, the integer upper bound 1023 converted to a float and
  broadcast, the minimum); and the scaling back by 2^-10 (a literal, its broadcast, the product).  Twenty operations, each
  acting on every element independently, so the result at an index depends on the argument at that index only.
-/
import proofs.«159299_j5342939316844_2_alg».proof.Proof.Gen.ReferenceIdeal
import proofs.«159299_j5342939316844_2_alg».proof.Proof.Level
import Idealize.ShloMosaic.Lib.StableHlo.Run

noncomputable section

namespace Cert.ReferenceIdeal.Inlined

open Cert.ReferenceIdeal Cert.ReferenceIdeal.Gen Idealize.ShloMosaic Idealize.ShloMosaic.TcCoe Idealize.SL.Sem Idealize.ShloMosaic.StableHlo

variable {F : FTy → Type} [FloatOps F]

/-- The program's twenty operations in order, each function's operations standing where it is called, over that call's
    buffers: three for the quotient, six for rounding toward zero (the selection is the innermost call's one
    operation), the two bounds, six for the clamp, three for the scaling back. -/
abbrev ops : List (HloOp τ sig (Elt F)) :=
  [ nullary main_cst (constant S_ .f32 0x3A800000#32),
    unary main_cst main_v0 (broadcastInDim S33554432 ![] bcast_S_S33554432 : (⟨S_, .f32⟩ : BufTy).Contents (Elt F) → (⟨S33554432, .f32⟩ : BufTy).Contents (Elt F)),
    binary main_arg0 main_v0 main_v1 (Host.divf : (⟨S33554432, .f32⟩ : BufTy).Contents (Elt F) → (⟨S33554432, .f32⟩ : BufTy).Contents (Elt F) → (⟨S33554432, .f32⟩ : BufTy).Contents (Elt F)),
    TRef.nullary main_call0.cst (constant S_ .f32 0x00000000#32),
    TRef.unary main_call0.cst main_call0.v0 (broadcastInDim S33554432 ![] bcast_S_S33554432),
    TRef.binary (.of main_v1) main_call0.v0 main_call0.v1 (cmpf .olt),
    TRef.unary (.of main_v1) main_call0.v2 Host.ceil,
    TRef.unary (.of main_v1) main_call0.v3 Host.floor,
    TRef.ternary main_call0.v1 main_call0.v2 main_call0.v3 main_call0.call0.v0 select,
    nullary main_cst_0 (constant S_ .f32 0x00000000#32),
    nullary main_c (constantI S_ 32 1023#32),
    TRef.unary (.of main_cst_0) main_call1.v0 id,
    TRef.unary main_call1.v0 main_call1.v1 (broadcastInDim S33554432 ![] bcast_S_S33554432),
    TRef.binary main_call1.v1 (.of main_v2) main_call1.v2 maximumf,
    TRef.unary (.of main_c) main_call1.v3 (sitofp .f32),
    TRef.unary main_call1.v3 main_call1.v4 (broadcastInDim S33554432 ![] bcast_S_S33554432),
    TRef.binary main_call1.v4 main_call1.v2 main_call1.v5 minimumf,
    nullary main_cst_1 (constant S_ .f32 0x3A800000#32),
    unary main_cst_1 main_v4 (broadcastInDim S33554432 ![] bcast_S_S33554432 : (⟨S_, .f32⟩ : BufTy).Contents (Elt F) → (⟨S33554432, .f32⟩ : BufTy).Contents (Elt F)),
    binary main_v3 main_v4 main_v5 (mulf : (⟨S33554432, .f32⟩ : BufTy).Contents (Elt F) → (⟨S33554432, .f32⟩ : BufTy).Contents (Elt F) → (⟨S33554432, .f32⟩ : BufTy).Contents (Elt F)) ]

set_option maxRecDepth 1024 in
/-- The program is that straight line: with the three functions' definitions unfolded at their calls and the sequencing
    reassociated, both sides are one chain of the same twenty steps. -/
theorem main_eq (c : Dev nD) : main (F := F) c = seq ops := by
  simp only [main, fn_trunc.body, fn_where.body, fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨nullary_bufs_sub .., unary_bufs_sub .., binary_bufs_sub ..,
    nullary_bufs_sub .., unary_bufs_sub .., binary_bufs_sub .., unary_bufs_sub .., unary_bufs_sub .., ternary_bufs_sub ..,
    nullary_bufs_sub .., nullary_bufs_sub ..,
    unary_bufs_sub .., unary_bufs_sub .., binary_bufs_sub .., unary_bufs_sub .., unary_bufs_sub .., binary_bufs_sub ..,
    nullary_bufs_sub .., unary_bufs_sub .., binary_bufs_sub ..⟩

/-- On every device, over any float values, from any memory with zero counters: every weakly fair execution of the
    program terminates, its result holding 'refLevel' of the argument at every index — each of the twenty operations
    acts element by element, and the chain they compose at one element is 'refLevel''s — and its argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5)
          = Cert.Binning.everywhere (s := S33554432) Cert.Binning.refLevel (m ((c.tc : Thread nD τ).loc main_arg0))
      ∧ r.2.mem ((c.tc : Thread nD τ).loc main_arg0) = m ((c.tc : Thread nD τ).loc main_arg0) :=
  (θ_run defs _ _).mono (fun _ h c => ⟨(h c main_v5).trans (by after_results; rfl),
      (h c main_arg0).trans (by after_results)⟩)
    (run_seq scopedRefs_eq scopedSems_eq defs main (fun _ => ops) main_eq (fun _ => ops_sub) m ρ)

end Cert.ReferenceIdeal.Inlined

end
-- ==== Proof.KernelRows.lean ====
/-
  The kernel's result, read off its frame run: every element of its result is 'kernelLevel' of the same element of its
  argument.

  The kernel's program views its flat argument of 33554432 elements as 262144 rows of 128, row-major; hands a pipeline the
  32 blocks of 8192 consecutive rows, one per grid point; and views the pipeline's output, row-major, as flat again.  At
  each point the body loads its whole input block, applies the scalar chain 'kernelLevel' to every element, and stores
  the whole output block; input and output blocks sit at the same place (block t is rows 8192·t … 8192·t + 8191, all 128
  columns), so what point t writes back is block t of "kernelLevel of every element of the viewed argument".  The 32
  blocks cover every row (row r lies in block r / 8192), hence the output array IS that function; and because applying a
  function to every element commutes with a row-major change of shape, and viewing as rows and then as flat again is the
  identity, the flat result is 'kernelLevel' of every element of the flat argument.
-/
import proofs.«159299_j5342939316844_2_alg».proof.Proof.Gen.KernelIdeal.Frame
import proofs.«159299_j5342939316844_2_alg».proof.Proof.Level
import Idealize.ShloMosaic.Lib.Pipeline.Value
import Idealize.ShloMosaic.Lib.StableHlo.Run

noncomputable section

namespace Cert.KernelIdeal.Rows

open Cert.KernelIdeal Cert.KernelIdeal.Gen Idealize.ShloMosaic Idealize.ShloMosaic.TcCoe Idealize.SL.Sem
open Idealize.ShloMosaic.StableHlo
open Idealize.ShloMosaic.Pipeline (Dat)
open Cert.Binning (everywhere kernelLevel)

variable {F : FTy → Type} [FloatOps F]
variable (m : (ℓ : Loc nD τ sig) → Buf (Elt F) ℓ) (ρ : Dev nD → PrngReg)

/-! ## One block -/

/-- The body's one load and one store are at the block's origin. -/
theorem origin : (![0, 0] : Fin 2 → Nat) = fun _ => 0 := funext fun a => by fin_cases a <;> rfl

/-- The body's arithmetic on its loaded block is 'kernelLevel' at every element: each operation of the chain acts
    element by element, the constants are splats, and the body's change of shape is to the block's own shape. -/
theorem payload_eq (x0 : Vec F S8192x128 .f32) : k0_pay1 x0 = everywhere kernelLevel x0 := by
  unfold k0_pay1
  simp only [shapeCast_self]
  rfl

/-- The input window and the output window move together: at every grid point their blocks have the same block index
    on both axes (decided over the 32 points). -/
theorem same_block : ∀ t : Fin cfg0.N, win0_0.index t (0 : Fin 2) = win0_1.index t (0 : Fin 2)
    ∧ win0_0.index t (1 : Fin 2) = win0_1.index t (1 : Fin 2) :=
  (by decide +kernel : ∀ t : Fin grid0.N, _)

/-- Every one of the 32 row blocks is some grid point's output block, at column block 0 (decided). -/
theorem block_onto : ∀ q : Fin 32, ∃ t : Fin cfg0.N, win0_1.index t = ![q.val, 0] :=
  (by decide +kernel : ∀ q : Fin 32, ∃ t : Fin grid0.N, win0_1.index t = ![q.val, 0])

/-- WHAT POINT t WRITES BACK is block t of 'kernelLevel' of every element of the array the region is entered with. -/
theorem flushed_eq (c : Dev nD) (t : Fin cfg0.N) :
    (dats m 0 c).flushed 1 t
      = ((cfg0.win 1).blk t).view.read (Elt F) (everywhere (s := S262144x128) kernelLevel (V m c main_v0)) := by
  show (cfg0.win 1).cut (grid0.coords t) ((dats m 0 c).after 1 t) = _
  rw [after0_1]
  unfold out0_1
  rw [View.canon_unit_zero origin]
  simp only [View.ld_unit_zero (S := S8192x128) origin]
  rw [payload_eq]
  obtain ⟨e0, e1⟩ := same_block t
  funext j
  show kernelLevel (V m c main_v0 (((cfg0.win 0).blk t).view.emb j)) = kernelLevel (V m c main_v0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 8192 + 1 * (j 0).val = win0_1.index t (0 : Fin 2) * 8192 + 1 * (j 0).val; omega
    | ⟨1, _⟩ => show win0_0.index t (1 : Fin 2) * 128 + 1 * (j 1).val = win0_1.index t (1 : Fin 2) * 128 + 1 * (j 1).val; omega
  rw [h0]

/-! ## The 32 blocks cover the array -/

/-- An index of the output array is in point t's block iff each coordinate is in the block's range on its axis. -/
theorem mem_block (t : Fin cfg0.N) (i : S262144x128.Idx) :
    i ∈ ((cfg0.win 1).blk t).view.set ↔ ∀ a : Fin 2, win0_1.index t a * S8192x128.size a ≤ (i a).val ∧ (i a).val < win0_1.index t a * S8192x128.size a + S8192x128.size a := by
  show i ∈ ((View.whole main_v1).slice (win0_1.rect t)).set ↔ _
  rw [View.set_slice_whole, Rect.mem_set_unit]
  exact Iff.rfl

/-- Row r lies in the block of the point whose block index is r / 8192; every column lies in column block 0. -/
theorem covered (i : S262144x128.Idx) :
    ∃ t : Fin cfg0.N, (cfg0.win 1).flush t = true ∧ i ∈ ((cfg0.win 1).blk t).view.set := by
  have hi0 : (i 0).val < 262144 := (i 0).isLt
  have hi1 : (i 1).val < 128 := (i 1).isLt
  obtain ⟨t, ht⟩ := block_onto ⟨(i 0).val / 8192, by omega⟩
  have q0 : win0_1.index t (0 : Fin 2) = (i 0).val / 8192 := congrFun ht 0
  have q1 : win0_1.index t (1 : Fin 2) = 0 := congrFun ht 1
  refine ⟨t, flush0_1 t, ?_⟩
  rw [mem_block]
  intro a
  match a with
  | ⟨0, _⟩ => show win0_1.index t (0 : Fin 2) * 8192 ≤ (i 0).val ∧ (i 0).val < win0_1.index t (0 : Fin 2) * 8192 + 8192; omega
  | ⟨1, _⟩ => show win0_1.index t (1 : Fin 2) * 128 ≤ (i 1).val ∧ (i 1).val < win0_1.index t (1 : Fin 2) * 128 + 128; omega

/-- THE OUTPUT ARRAY after the last point: 'kernelLevel' of every element of the array the region is entered with. -/
theorem rows_final (c : Dev nD) :
    (dats m 0 c).arrAt 1 cfg0.N = everywhere (s := S262144x128) kernelLevel (V m c main_v0) :=
  (dats m 0 c).arrAt_eq_of_cover 1 _ (fun t _ => flushed_eq m c t) covered

/-! ## The two changes of shape around the region -/

/-- The array the region is entered with is the argument viewed as 262144 rows of 128. -/
theorem rows_entry (c : Dev nD) :
    (V m c main_v0 : S262144x128.Idx → Elt F .f32)
      = shapeCast S262144x128 (m ((c : Thread nD τ).loc main_arg0)) shapeCasts_S33554432_S262144x128 := by
  show StableHlo.after hostOps0 (fun b => m (c, b)) (Proc.devRef .tc main_v0) = _
  after_results
  rfl

/-- The program's result is the output array viewed flat. -/
theorem flat_result (c : Dev nD) :
    (Pipeline.afterTail₀ cfgs (dats m) 0 (V0 m) [hostOps1] c main_v2 : S33554432.Idx → Elt F .f32)
      = shapeCast S33554432 ((dats m 0 c).arrAt 1 cfg0.N) shapeCasts_S262144x128_S33554432 := by
  unfold Pipeline.afterTail₀
  show StableHlo.after hostOps1 _ (Proc.devRef .tc main_v2) = _
  after_results
  rw [Pipeline.withArrays_arr spec0 launch0.win.arr_inj c _ _ 1]
  rfl

/-- THE RESULT: 'kernelLevel' of every element of the argument — applying it to every element commutes with both
    changes of shape, and viewing as rows and then flat again is the identity. -/
theorem result_eq (c : Dev nD) :
    (Pipeline.afterTail₀ cfgs (dats m) 0 (V0 m) [hostOps1] c main_v2 : S33554432.Idx → Elt F .f32)
      = everywhere (s := S33554432) kernelLevel (m ((c : Thread nD τ).loc main_arg0)) := by
  rw [flat_result, rows_final, rows_entry, Cert.Binning.everywhere_shapeCast]
  exact congrArg (everywhere (s := S33554432) kernelLevel)
    (shapeCast_shapeCast (m ((c : Thread nD τ).loc main_arg0)) shapeCasts_S33554432_S262144x128 shapeCasts_S262144x128_S33554432)

/-! ## The run -/

/-- On every device, over any float values, from any memory with zero counters: every weakly fair execution of the
    kernel's program terminates, its result holding 'kernelLevel' of the argument at every index, its argument unchanged. -/
theorem run : θ_run defs (onTc (τ := τ) (main (F := F))) ⟨m, fun _ => 0, ρ⟩ fun r => ∀ c : Dev nD,
      r.2.mem ((c.tc : Thread nD τ).loc main_v2)
          = everywhere (s := S33554432) kernelLevel (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.Rows

end
-- ==== Proof.lean ====
/-
  The kernel and its reference compute the same array over the extended reals.

  Both programs quantise every element x of a flat array of 33554432 floats to one of 1024 levels of width 2^-10:
  min 1023 (max 0 (x scaled by 1024, rounded toward zero)) * 2^-10.  The kernel scales by the product x * 1024 inside a
  pipeline over 32 blocks of 8192 rows of 128; the reference scales by the quotient x / 2^-10 on the whole array.

    * Level.lean        the two scalar chains, and the law that joins them on the extended reals: a quotient by 2^-10
                        is the product with 1024 (on every extended real, so the inputs' finiteness is never used),
                        the host's ceil and floor are the kernel's, the integer 1023 converts to the literal 1023.0's value;
    * ReferenceRun.lean the reference's run: its result is the reference's chain of its argument, element by element;
    * KernelRows.lean   the kernel's run: its result is the kernel's chain of its argument, element by element — each
                        point writes back its block of that function, the blocks cover the array, and the two
                        row-major changes of shape around the region cancel.

  The frames of the two kernel programs are their generated frame runs; the reference's frame is its run with the
  result forgotten.  The idealization rewrote no operation, so there is nothing to preserve.
-/
import proofs.«159299_j5342939316844_2_alg».proof.Defs
import proofs.«159299_j5342939316844_2_alg».proof.Proof.Gen.Kernel
import proofs.«159299_j5342939316844_2_alg».proof.Proof.Gen.Kernel.Frame
import proofs.«159299_j5342939316844_2_alg».proof.Proof.Gen.KernelIdeal
import proofs.«159299_j5342939316844_2_alg».proof.Proof.Gen.KernelIdeal.Frame
import proofs.«159299_j5342939316844_2_alg».proof.Proof.Gen.ReferenceIdeal
import proofs.«159299_j5342939316844_2_alg».proof.Proof.Gen.Pre_finite_inputs
import proofs.«159299_j5342939316844_2_alg».proof.Proof.Level
import proofs.«159299_j5342939316844_2_alg».proof.Proof.ReferenceRun
import proofs.«159299_j5342939316844_2_alg».proof.Proof.KernelRows
import Idealize.ShloMosaic.Adequacy
import Idealize.ShloMosaic.Init

noncomputable section

namespace Cert.Proof

open Idealize.ShloMosaic Idealize.ShloMosaic.TcCoe Idealize.SL.Sem

/-- The kernel's program as printed terminates without a fault and leaves its argument as it found it. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Inlined.run (F := Ideal) m ρ)

/-- The idealization rewrote no operation. -/
theorem preserves : Cert.preserves_Kernel_KernelIdeal := trivial

/-- From memories that agree on the argument both programs end with equal results: the kernel's result is its scalar
    chain of the argument at every index, the reference's is its own chain of the same argument, and on the extended
    reals the two chains are one function. -/
theorem algebraic : Cert.algebraic_KernelIdeal_ReferenceIdeal := by
  intro m ρ m' ρ' _ hagree
  refine ⟨_, Cert.KernelIdeal.Rows.run (F := Ideal) m ρ, ?_⟩
  refine (θ_run Cert.ReferenceIdeal.defs _ _).mono (fun _ h c => ⟨(h c).1.trans ?_, (h c).2⟩)
    (Cert.ReferenceIdeal.Inlined.run (F := Ideal) m' ρ')
  rw [hagree c]
  exact funext fun k => Cert.Binning.refLevel_eq_kernelLevel _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
